-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S128 .f32) (main_arg6 : FVec F S128 .f32) (main_arg7 : FVec F S128x16 .f32) (main_arg8 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg7
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) (main_arg6 : FVec F S128 .f32) (main_arg7 : FVec F S128x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S1 : Shape := ⟨1, ![1]⟩
abbrev S2000 : Shape := ⟨1, ![2000]⟩
abbrev S2000x1 : Shape := ⟨2, ![2000, 1]⟩
abbrev S100000x16 : Shape := ⟨2, ![100000, 16]⟩

abbrev nBuf : Space → Nat
  | .hbm => 85
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S128x128, .f32⟩
  | .hbm, ⟨74, _⟩ => ⟨S_, .i32⟩
  | .hbm, ⟨75, _⟩ => ⟨S1, .i32⟩
  | .hbm, ⟨76, _⟩ => ⟨S128x128, .f32⟩
  | .hbm, ⟨77, _⟩ => ⟨S_, .f32⟩
  | .hbm, ⟨78, _⟩ => ⟨S128, .f32⟩
  | .hbm, ⟨79, _⟩ => ⟨S_, .i32⟩
  | .hbm, ⟨80, _⟩ => ⟨S1, .i32⟩
  | .hbm, ⟨81, _⟩ => ⟨S128, .f32⟩
  | .hbm, ⟨82, _⟩ => ⟨S1x128, .f32⟩
  | .hbm, ⟨83, _⟩ => ⟨S100000x128, .f32⟩
  | .hbm, ⟨84, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x128_S128x128 : S128x128.ShapeCasts S128x128
  slices_S100000x128_S100000x16_0_0 : S100000x128.Slices ![0, 0] S100000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S1_S128x16_01_n_1_0_wf : ScatterDims.WF S128x128 S1 S128x16 [0, 1] [] [1] 0
  scatter_S128_S1_S16_0_n_0_0_wf : ScatterDims.WF S128 S1 S16 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S1_S128x16_01_n_1_0 : ScatterDims S128x128 S1 S128x16 where
  updateWindowDims := [0, 1]
  insertedWindowDims := []
  scatterDimsToOperandDims := [1]
  indexVectorDim := 0
  wf := scatter_S128x128_S1_S128x16_01_n_1_0_wf
def scatter_S128_S1_S16_0_n_0_0 : ScatterDims S128 S1 S16 where
  updateWindowDims := [0]
  insertedWindowDims := []
  scatterDimsToOperandDims := [0]
  indexVectorDim := 0
  wf := scatter_S128_S1_S16_0_n_0_0_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S100000x16, .f32⟩
  | .hbm, ⟨103, _⟩ => ⟨S1x16, .f32⟩
  | .hbm, ⟨104, _⟩ => ⟨S100000x16, .f32⟩
  | .hbm, ⟨105, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call1_cst : Ref sig .tc := ⟨.hbm, 99, rfl⟩
abbrev main_call1_v0 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel's run, with its RESULT kept. Every weakly fair execution of @main on the TensorCore ends
  (nothing faulting) with every buffer outside the kernels' scopes at the contents the last segment boundary names:
  the argument arrays as launched, and the result buffer at the final host slice of what the second kernel's
  write-backs left. The run is the program's seven segments in order — three stretches of host operations, the matrix
  product's grid, the stretch that aggregates over the edges and pads the classifier's weights, the normalisation
  grid, the closing slice — and the buffers' contents at each boundary are a fold from the launch memory; this module
  only reads the last boundary at the result buffer as well as at the arguments.
-/
import proofs.«161572_j3324304687691_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the nine
    argument arrays as launched. -/
theorem run_out : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Out

end
-- ==== Proof.RowSpec.lean ====
/-
  The mathematics both programs compute, stated once over plain coordinate functions.

  A row of the aggregated features is a function `r : Fin 128 → EReal`. Its mean is the sum of its entries divided by
  128, its variance the mean of the squared deviations; the normalised, scaled, shifted and rectified entry `k` is
  `max ((r k − mean) · rsqrt (var + ε) · g k + β k) 0`, and one output is the product of that row with a column of the
  classifier's weights, plus its bias. The divisor 128 and the ε are the f32 words both programs carry (0x43000000,
  0x3727C5AC): the same word on both sides, never evaluated. Entry (p, q) of the first layer is the plain sum
  `∑ k, x (p, k) · w (k, q)`.

  Two layout facts the normalisation's block needs and the library's ValueLayout does not have: a vector cast to a
  column, and a column broadcast across lanes, read at an index.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowSpec

open Idealize.ShloMosaic Idealize.ShloMosaic.ValueIdx

section Layout
variable {α : Type}

/-- An `[a]` vector cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- The divisor both programs carry: the f32 word of 128. -/
abbrev c128 : EReal := Ideal.ofBits .f32 0x43000000#32
/-- The ε both programs carry: the f32 word nearest 1e-5. -/
abbrev cEps : EReal := Ideal.ofBits .f32 0x3727C5AC#32

/-- A row's mean. -/
def mean (r : Fin 128 → EReal) : EReal := Ideal.div (∑ k : Fin 128, r k) c128
/-- A row's variance: the mean of the squared deviations from the mean. -/
def var (r : Fin 128 → EReal) : EReal := Ideal.div (∑ k : Fin 128, (r k - mean r) * (r k - mean r)) c128
/-- Entry `k` of the row normalised, scaled by `g`, shifted by `β` and rectified. -/
def act (r g β : Fin 128 → EReal) (k : Fin 128) : EReal :=
  max ((r k - mean r) * Ideal.rsqrt (var r + cEps) * g k + β k) 0
/-- One output: the rectified row against a column `w` of the classifier's weights, plus the bias `b`. -/
def out (r g β w : Fin 128 → EReal) (b : EReal) : EReal := (∑ k : Fin 128, act r g β k * w k) + b

/-- Entry `(p, q)` of the product of an `[n, 128]` array with a `[128, 128]` one. -/
def dotAt {n : ℕ} (x : (⟨2, ![n, 128]⟩ : Shape).Idx → EReal) (w : (⟨2, ![128, 128]⟩ : Shape).Idx → EReal) (p : Fin n) (q : Fin 128) : EReal :=
  ∑ k : Fin 128, x (ix2 p k) * w (ix2 k q)

end Cert.RowSpec

end
-- ==== Proof.ProductBlock.lean ====
/-
  The first kernel's block, read at an index. At a grid point the body loads a [2000, 128] block of the node features and
  the whole [128, 128] weight, rounds both to bf16 (the identity on extended reals) and multiplies them into a zero
  accumulator: entry (p, q) of what it stores is the plain sum over k of feature (p, k) times weight (k, q).
-/
import proofs.«161572_j3324304687691_1_alg».proof.Proof.Gen.KernelIdeal.Skeleton
import proofs.«161572_j3324304687691_1_alg».proof.Proof.RowSpec

noncomputable section

namespace Cert.KernelIdeal.Blocks

open Cert.KernelIdeal Cert.KernelIdeal.Gen Cert.RowSpec
open Idealize.ShloMosaic Idealize.ShloMosaic.ValueIdx

/-- The contraction both kernels' matrix products use: [2000, 128] against [128, 128] over the shared axis. -/
abbrev D0 : DotDims S2000x128 S128x128 S2000x128 := dot_S2000x128_S128x128_S2000x128_1_0_0_1_n_n

theorem D0_lhs_0 (i : S2000x128.Idx) (q : D0.contr.Idx) : (D0.lhsIdx i q 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
theorem D0_lhs_1 (i : S2000x128.Idx) (q : D0.contr.Idx) : (D0.lhsIdx i q 1).val = (q ⟨0, by decide⟩).val :=
  D0.lhsIdx_val_of_single rfl i q
theorem D0_rhs_0 (i : S2000x128.Idx) (q : D0.contr.Idx) : (D0.rhsIdx i q 0).val = (q ⟨0, by decide⟩).val :=
  D0.rhsIdx_val_of_single rfl i q
theorem D0_rhs_1 (i : S2000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- A product of a [2000, 128] block with a [128, 128] matrix into a zero accumulator, at (p, q): the row-by-column sum. -/
theorem matmul_zero_apply (l : FVec Ideal S2000x128 .bf16) (r : FVec Ideal S128x128 .bf16) (p : Fin 2000) (q : Fin 128) :
    matmul D0 none l r (constant S2000x128 .f32 0x00000000#32) (ix2 p q) = ∑ k : Fin 128, l (ix2 p k) * r (ix2 k q) := by
  refine (Ideal.matmul_constant_zero_apply D0 none l r (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact D0_lhs_0 _ _
    | ⟨1, _⟩ => exact (D0_lhs_1 _ _).trans hk)
  have er : D0.rhsIdx (ix2 p q) ((contrEquiv1 D0 128 rfl rfl).symm k) = ix2 k q := funext fun a => Fin.ext (by
    match a with
    | ⟨0, _⟩ => exact (D0_rhs_0 _ _).trans hk
    | ⟨1, _⟩ => exact D0_rhs_1 _ _)
  rw [el, er]

/-- What the first kernel stores, at (p, q): the features' row p against the weight's column q. -/
theorem product_block_apply (x0 : Vec Ideal S2000x128 .f32) (x1 : Vec Ideal S128x128 .f32) (p : Fin 2000) (q : Fin 128) :
    k0_pay1 (F := Ideal) x0 x1 (ix2 p q) = dotAt x0 x1 p q := by
  unfold k0_pay1 dotAt
  exact matmul_zero_apply _ _ p q

end Cert.KernelIdeal.Blocks

end
-- ==== Proof.ProductArray.lean ====
/-
  The first kernel's output array, whole. Grid point t loads rows [2000 t, 2000 t + 2000) of the node features and the
  whole weight, and writes back the same rows of the output; what it writes is, entry by entry, the row-by-column sum
  (ProductBlock). The fifty blocks tile the [100000, 128] array — row r lies in block r / 2000 — so after the write-backs
  the array holds the whole product of the features and the weight as the region found them.
-/
import proofs.«161572_j3324304687691_1_alg».proof.Proof.Gen.KernelIdeal.Frame
import proofs.«161572_j3324304687691_1_alg».proof.Proof.ProductBlock

set_option maxRecDepth 16384

noncomputable section

namespace Cert.KernelIdeal.Arrays

open Cert.KernelIdeal Cert.KernelIdeal.Gen Cert.KernelIdeal.Blocks Cert.RowSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product: entry i is row `i 0` of the features against column `i 1` of the weight. -/
def product (x : S100000x128.Idx → EReal) (w : S128x128.Idx → EReal) : S100000x128.Idx → EReal :=
  fun i => dotAt x w ⟨(i 0).val, (i 0).isLt⟩ ⟨(i 1).val, (i 1).isLt⟩

/-- Two row-by-column sums agree when their rows and columns do, entry by entry. -/
theorem dotAt_congr {n n' : ℕ} (x : (⟨2, ![n, 128]⟩ : Shape).Idx → EReal) (x' : (⟨2, ![n', 128]⟩ : Shape).Idx → EReal)
    (w w' : (⟨2, ![128, 128]⟩ : Shape).Idx → EReal) (p : Fin n) (p' : Fin n') (q q' : Fin 128)
    (hx : ∀ k : Fin 128, x (ix2 p k) = x' (ix2 p' k)) (hw : ∀ k : Fin 128, w (ix2 k q) = w' (ix2 k q')) :
    dotAt x w p q = dotAt x' w' p' q' := by
  unfold dotAt
  exact Finset.sum_congr rfl fun k _ => by rw [hx k, hw k]

/-- The block's payload at any index of the block. -/
theorem product_block_at (x0 : Vec Ideal S2000x128 .f32) (x1 : Vec Ideal S128x128 .f32) (j : S2000x128.Idx) :
    k0_pay1 (F := Ideal) x0 x1 j = dotAt x0 x1 ⟨(j 0).val, (j 0).isLt⟩ ⟨(j 1).val, (j 1).isLt⟩ := by
  obtain ⟨p, q, rfl⟩ : ∃ (p : Fin 2000) (q : Fin 128), j = ix2 p q := ⟨j 0, j 1, eq_ix2 j⟩
  exact product_block_apply x0 x1 p q

/-- The first kernel's index maps over its grid: the features' and the output's block row is the point, every other block
    coordinate is zero. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the region finds them. -/
theorem flushed_product (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := block_indices0 t
  funext j
  refine (product_block_at (iblk0 V c 0 t) (iblk0 V c 1 t) j).trans ?_
  have h0 : ∀ k : Fin 128, ((cfg0.win 0).blk t).view.emb (ix2 ⟨(j 0).val, (j 0).isLt⟩ k)
      = ix2 ⟨((((cfg0.win 2).blk t).view.emb j) 0).val, ((((cfg0.win 2).blk t).view.emb j) 0).isLt⟩ k := fun k => by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ∀ k : Fin 128, ((cfg0.win 1).blk t).view.emb (ix2 k ⟨(j 1).val, (j 1).isLt⟩)
      = ix2 k ⟨((((cfg0.win 2).blk t).view.emb j) 1).val, ((((cfg0.win 2).blk t).view.emb j) 1).isLt⟩ := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact dotAt_congr _ _ _ _ _ _ _ _ (fun k => congrArg (V c main_arg0) (h0 k)) (fun k => congrArg (V c main_arg3) (h1 k))

/-- An index of the output array is in point t's block iff each coordinate is in the block's range on its axis. -/
theorem mem_block0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v33).slice (win0_2.rect t)).set ↔ _
  rw [View.set_slice_whole, Rect.mem_set_unit]
  exact Iff.rfl

/-- Every index of the output array is in some point's block: row r in block r / 2000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, e4, e5⟩ := block_indices0 ⟨(i 0).val / 2000, ht⟩
  refine ⟨⟨(i 0).val / 2000, ht⟩, flush0_2 _, ?_⟩
  rw [mem_block0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- The output array after the region: the whole product of the features and the weight as the region found them. -/
theorem product_array (c : Dev nD) :
    (dat0 V c).arrAt 2 cfg0.N = product (V c main_arg0) (V c main_arg3) :=
  (dat0 V c).arrAt_eq_of_cover 2 _ (fun t _ => flushed_product V c t) cover0

end Cert.KernelIdeal.Arrays

end
-- ==== Proof.NormBlock.lean ====
/-
  The second kernel's block, read at an index. At a grid point the body loads a [2000, 128] block `v` of the aggregated
  features, the scale and shift rows, the padded [128, 128] classifier weight and its padded bias row. Row by row it takes
  the mean of the 128 lanes (a lane sum divided by 128), centres the row, takes the mean of the squares, multiplies the
  centred row by the reciprocal square root of that variance plus ε, scales, shifts and rectifies it, and multiplies the
  result (rounded to bf16: the identity on extended reals) with the weight into a zero accumulator, adding the bias row.
  So entry (p, q) of what it stores is `RowSpec.out` of row p of the block against column q of the weight.

  The stages are named here as functions of a block so that each is read at an index once, over variables.
-/
import proofs.«161572_j3324304687691_1_alg».proof.Proof.ProductBlock

noncomputable section

namespace Cert.KernelIdeal.Blocks

open Cert.KernelIdeal Cert.KernelIdeal.Gen Cert.RowSpec
open Idealize.ShloMosaic Idealize.ShloMosaic.ValueIdx

/-- The lane sum of a block's row p. -/
theorem laneSum_apply (v : FVec Ideal S2000x128 .f32) (p : Fin 2000) :
    multiReduction .add [1] S2000 v 0x00000000#32 reduces_S2000x128_S2000 (.inl rfl) rfl (ix1 p) = ∑ k : Fin 128, v (ix2 p k) := by
  refine (Ideal.multiReduction_add_single v 0x00000000#32 reduces_S2000x128_S2000 (.inl rfl) rfl (ix1 p)).trans ?_
  refine Finset.sum_congr rfl fun k _ => congrArg v (funext fun a => Fin.ext ?_)
  match a with
  | ⟨0, _⟩ => rfl
  | ⟨1, _⟩ => rfl

/-- The column of a block's row means: lane sums, as a column, divided by 128. -/
def colMean (v : FVec Ideal S2000x128 .f32) : FVec Ideal S2000x1 .f32 :=
  divf (shapeCast S2000x1 (multiReduction .add [1] S2000 v 0x00000000#32 reduces_S2000x128_S2000 (.inl rfl) rfl) shapeCasts_S2000_S2000x1)
    (broadcast S2000x1 (Scalar.ofBits .f32 0x43000000#32))

theorem colMean_apply (v : FVec Ideal S2000x128 .f32) (p : Fin 2000) (u : Fin 1) :
    colMean v (ix2 p u) = mean (fun k => v (ix2 p k)) := by
  show Ideal.div (shapeCast S2000x1 (multiReduction .add [1] S2000 v 0x00000000#32 reduces_S2000x128_S2000 (.inl rfl) rfl) shapeCasts_S2000_S2000x1 (ix2 p u)) c128 = _
  rw [shapeCast_a_a1_apply, laneSum_apply]
  rfl

/-- A block with each row's mean taken off. -/
def centre (v : FVec Ideal S2000x128 .f32) : FVec Ideal S2000x128 .f32 :=
  subf v (broadcastTo S2000x128 (colMean v) broadcasts_S2000x1_S2000x128)

theorem centre_apply (v : FVec Ideal S2000x128 .f32) (p : Fin 2000) (q : Fin 128) :
    centre v (ix2 p q) = v (ix2 p q) - mean (fun k => v (ix2 p k)) := by
  show v (ix2 p q) - broadcastTo S2000x128 (colMean v) broadcasts_S2000x1_S2000x128 (ix2 p q) = _
  rw [broadcastTo_a1_ab_apply, colMean_apply]

/-- The column of reciprocal square roots of each row's variance plus ε. -/
def scaleCol (v : FVec Ideal S2000x128 .f32) : FVec Ideal S2000x1 .f32 :=
  rsqrt (addf (colMean (mulf (centre v) (centre v))) (broadcast S2000x1 (Scalar.ofBits .f32 0x3727C5AC#32)))

theorem scaleCol_apply (v : FVec Ideal S2000x128 .f32) (p : Fin 2000) (u : Fin 1) :
    scaleCol v (ix2 p u) = Ideal.rsqrt (var (fun k => v (ix2 p k)) + cEps) := by
  show Ideal.rsqrt (colMean (mulf (centre v) (centre v)) (ix2 p u) + cEps) = _
  rw [colMean_apply]
  refine congrArg (fun z => Ideal.rsqrt (z + cEps)) ?_
  unfold mean var
  refine congrArg (fun z => Ideal.div z c128) (Finset.sum_congr rfl fun k _ => ?_)
  show centre v (ix2 p k) * centre v (ix2 p k) = _
  rw [centre_apply]

/-- The block normalised, scaled by the row `g`, shifted by the row `β` and rectified. -/
def actBlock (v : FVec Ideal S2000x128 .f32) (g β : FVec Ideal S1x128 .f32) : FVec Ideal S2000x128 .f32 :=
  maximumf
    (addf (mulf (mulf (centre v) (broadcastTo S2000x128 (scaleCol v) broadcasts_S2000x1_S2000x128))
      (broadcastTo S2000x128 g broadcasts_S1x128_S2000x128)) (broadcastTo S2000x128 β broadcasts_S1x128_S2000x128))
    (broadcast S2000x128 (Scalar.ofBits .f32 0x00000000#32))

theorem actBlock_apply (v : FVec Ideal S2000x128 .f32) (g β : FVec Ideal S1x128 .f32) (p : Fin 2000) (k : Fin 128) :
    actBlock v g β (ix2 p k)
      = act (fun k => v (ix2 p k)) (fun k => g (ix2 (0 : Fin 1) k)) (fun k => β (ix2 (0 : Fin 1) k)) k := by
  show max (centre v (ix2 p k) * broadcastTo S2000x128 (scaleCol v) broadcasts_S2000x1_S2000x128 (ix2 p k)
      * broadcastTo S2000x128 g broadcasts_S1x128_S2000x128 (ix2 p k)
      + broadcastTo S2000x128 β broadcasts_S1x128_S2000x128 (ix2 p k)) (Ideal.ofBits .f32 0x00000000#32) = _
  rw [broadcastTo_a1_ab_apply, scaleCol_apply, centre_apply, broadcastTo_1b_ab_apply, broadcastTo_1b_ab_apply,
    Ideal.ofBits_zero_f32]
  rfl

/-- The second kernel's payload is the product of the activated block with the weight, plus the bias row. -/
theorem k1_pay1_eq (x0 : Vec Ideal S2000x128 .f32) (x1 x2 : Vec Ideal S1x128 .f32) (x3 : Vec Ideal S128x128 .f32) (x4 : Vec Ideal S1x128 .f32) :
    k1_pay1 (F := Ideal) x0 x1 x2 x3 x4
      = addf (matmul D0 none
            (truncf .bf16 (actBlock (shapeCast S2000x128 x0 shapeCasts_S2000x128_S2000x128) (shapeCast S1x128 x1 shapeCasts_S1x128_S1x128)
              (shapeCast S1x128 x2 shapeCasts_S1x128_S1x128)) bitsLt_bf16_f32)
            (truncf .bf16 (shapeCast S128x128 x3 shapeCasts_S128x128_S128x128) bitsLt_bf16_f32)
            (constant S2000x128 .f32 0x00000000#32))
          (broadcastTo S2000x128 (shapeCast S1x128 x4 shapeCasts_S1x128_S1x128) broadcasts_S1x128_S2000x128) := rfl

/-- What the second kernel stores, at (p, q): row p of the block, normalised and rectified, against column q of the weight,
    plus the bias at q. -/
theorem norm_block_apply (x0 : Vec Ideal S2000x128 .f32) (x1 x2 : Vec Ideal S1x128 .f32) (x3 : Vec Ideal S128x128 .f32)
    (x4 : Vec Ideal S1x128 .f32) (p : Fin 2000) (q : Fin 128) :
    k1_pay1 (F := Ideal) x0 x1 x2 x3 x4 (ix2 p q)
      = out (fun k => x0 (ix2 p k)) (fun k => x1 (ix2 (0 : Fin 1) k)) (fun k => x2 (ix2 (0 : Fin 1) k))
          (fun k => x3 (ix2 k q)) (x4 (ix2 (0 : Fin 1) q)) := by
  rw [k1_pay1_eq, shapeCast_self, shapeCast_self, shapeCast_self, shapeCast_self, shapeCast_self]
  show matmul (F := Ideal) D0 none _ _ (constant S2000x128 .f32 0x00000000#32) (ix2 p q) + broadcastTo S2000x128 x4 broadcasts_S1x128_S2000x128 (ix2 p q) = _
  rw [matmul_zero_apply, broadcastTo_1b_ab_apply]
  unfold out
  refine congrArg (· + x4 (ix2 (0 : Fin 1) q)) (Finset.sum_congr rfl fun k _ => ?_)
  show actBlock x0 x1 x2 (ix2 p k) * x3 (ix2 k q) = _
  rw [actBlock_apply]

end Cert.KernelIdeal.Blocks

end
-- ==== Proof.NormArray.lean ====
/-
  The second kernel's output array, whole. Grid point t loads rows [2000 t, 2000 t + 2000) of the aggregated features and,
  whole, the scale row, the shift row, the padded weight and the padded bias row, and writes back the same rows of the
  output; what it writes is, entry by entry, `RowSpec.out` of the block's row against the weight's column (NormBlock). The
  fifty blocks tile the [100000, 128] array, so after the write-backs entry (r, q) of the array is `RowSpec.out` of row r
  of the aggregated features against column q of the padded weight, plus the padded bias at q — of the five arrays as the
  region found them.
-/
import proofs.«161572_j3324304687691_1_alg».proof.Proof.Gen.KernelIdeal.Frame
import proofs.«161572_j3324304687691_1_alg».proof.Proof.NormBlock

set_option maxRecDepth 16384

noncomputable section

namespace Cert.KernelIdeal.Arrays

open Cert.KernelIdeal Cert.KernelIdeal.Gen Cert.KernelIdeal.Blocks Cert.RowSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets' : (![0, 0] : Fin 2 → Nat) = fun _ => 0 := funext fun a => by fin_cases a <;> rfl

/-- The whole normalised output over 128 padded columns: entry i is row `i 0` of `a`, normalised with the rows `g`, `β`
    and rectified, against column `i 1` of `w`, plus `b` at `i 1`. -/
def normOut (a : S100000x128.Idx → EReal) (g β : S1x128.Idx → EReal) (w : S128x128.Idx → EReal) (b : S1x128.Idx → EReal) :
    S100000x128.Idx → EReal :=
  fun i => out (fun k => a (ix2 ⟨(i 0).val, (i 0).isLt⟩ k)) (fun k => g (ix2 (0 : Fin 1) k)) (fun k => β (ix2 (0 : Fin 1) k))
    (fun k => w (ix2 k ⟨(i 1).val, (i 1).isLt⟩)) (b (ix2 (0 : Fin 1) ⟨(i 1).val, (i 1).isLt⟩))

/-- Two outputs agree when their rows, scales, shifts, weight columns and biases do. -/
theorem out_congr (r r' g g' β β' w w' : Fin 128 → EReal) (b b' : EReal) (hr : ∀ k, r k = r' k) (hg : ∀ k, g k = g' k)
    (hβ : ∀ k, β k = β' k) (hw : ∀ k, w k = w' k) (hb : b = b') : out r g β w b = out r' g' β' w' b' := by
  rw [funext hr, funext hg, funext hβ, funext hw, hb]

/-- The block's payload at any index of the block. -/
theorem norm_block_at (x0 : Vec Ideal S2000x128 .f32) (x1 x2 : Vec Ideal S1x128 .f32) (x3 : Vec Ideal S128x128 .f32)
    (x4 : Vec Ideal S1x128 .f32) (j : S2000x128.Idx) :
    k1_pay1 (F := Ideal) x0 x1 x2 x3 x4 j
      = out (fun k => x0 (ix2 ⟨(j 0).val, (j 0).isLt⟩ k)) (fun k => x1 (ix2 (0 : Fin 1) k)) (fun k => x2 (ix2 (0 : Fin 1) k))
          (fun k => x3 (ix2 k ⟨(j 1).val, (j 1).isLt⟩)) (x4 (ix2 (0 : Fin 1) ⟨(j 1).val, (j 1).isLt⟩)) := by
  obtain ⟨p, q, rfl⟩ : ∃ (p : Fin 2000) (q : Fin 128), j = ix2 p q := ⟨j 0, j 1, eq_ix2 j⟩
  exact norm_block_apply x0 x1 x2 x3 x4 p q

/-- The second kernel's index maps over its grid: the features' and the output's block row is the point, every other block
    coordinate is zero. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the whole normalised output of the arrays as the region finds them. -/
theorem flushed_norm (c : Dev nD) (t : Fin cfg1.N) :
    (dat1 V c).flushed 5 t = ((cfg1.win 5).blk t).view.read (Elt Ideal)
      (normOut (V c main_v49) (V c main_v50) (V c main_v51) (V c main_v54) (V c main_v58)) := by
  show (cfg1.win 5).cut (grid1.coords t) ((dat1 V c).after 5 t) = _
  rw [after1_5]
  unfold out1_5
  rw [View.canon_unit_zero zero_offsets']
  simp only [View.ld_unit_zero (S := S2000x128) zero_offsets', View.ld_unit_zero (S := S1x128) zero_offsets',
    View.ld_unit_zero (S := S128x128) zero_offsets']
  obtain ⟨e0, e1, e2, e3, e4, e5, e6, e7, e8, e9, e10, e11⟩ := block_indices1 t
  funext j
  refine (norm_block_at (iblk1 V c 0 t) (iblk1 V c 1 t) (iblk1 V c 2 t) (iblk1 V c 3 t) (iblk1 V c 4 t) j).trans ?_
  have hA : ∀ k : Fin 128, ((cfg1.win 0).blk t).view.emb (ix2 ⟨(j 0).val, (j 0).isLt⟩ k)
      = ix2 ⟨((((cfg1.win 5).blk t).view.emb j) 0).val, ((((cfg1.win 5).blk t).view.emb j) 0).isLt⟩ k := fun k => by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  have hG : ∀ k : Fin 128, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hB : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have hW : ∀ k : Fin 128, ((cfg1.win 3).blk t).view.emb (ix2 k ⟨(j 1).val, (j 1).isLt⟩)
      = ix2 k ⟨((((cfg1.win 5).blk t).view.emb j) 1).val, ((((cfg1.win 5).blk t).view.emb j) 1).isLt⟩ := fun k => by
    funext a; apply Fin.ext
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have hb : ((cfg1.win 4).blk t).view.emb (ix2 (0 : Fin 1) ⟨(j 1).val, (j 1).isLt⟩)
      = ix2 (0 : Fin 1) ⟨((((cfg1.win 5).blk t).view.emb j) 1).val, ((((cfg1.win 5).blk t).view.emb j) 1).isLt⟩ := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  unfold normOut
  exact out_congr _ _ _ _ _ _ _ _ _ _ (fun k => congrArg (V c main_v49) (hA k)) (fun k => congrArg (V c main_v50) (hG k))
    (fun k => congrArg (V c main_v51) (hB k)) (fun k => congrArg (V c main_v54) (hW k)) (congrArg (V c main_v58) hb)

/-- An index of the output array is in point t's block iff each coordinate is in the block's range on its axis. -/
theorem mem_block1 (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v59).slice (win1_5.rect t)).set ↔ _
  rw [View.set_slice_whole, Rect.mem_set_unit]
  exact Iff.rfl

/-- Every index of the output array is in some point's block: row r in block r / 2000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, -, e10, e11⟩ := block_indices1 ⟨(i 0).val / 2000, ht⟩
  refine ⟨⟨(i 0).val / 2000, ht⟩, flush1_5 _, ?_⟩
  rw [mem_block1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e11]; omega

/-- The output array after the region: the whole normalised output of its five arrays as the region found them. -/
theorem norm_array (c : Dev nD) :
    (dat1 V c).arrAt 5 cfg1.N = normOut (V c main_v49) (V c main_v50) (V c main_v51) (V c main_v54) (V c main_v58) :=
  (dat1 V c).arrAt_eq_of_cover 5 _ (fun t _ => flushed_norm V c t) cover1

end Cert.KernelIdeal.Arrays

end
-- ==== Proof.LibScatterSet.lean ====
/-
  A host scatter whose body returns the update (jnp's `.at[…].set`), read at an index.

  The scatter is a left fold over the update's indices in row-major order: update index `j` lands at the operand index
  its start plus its window coordinate name, and replaces what is there. When every update index lands inside the
  operand, at `g j`, and `g` is injective — no two updates meet —, the result at `g j` is the update at `j`, whatever
  the operand held and in whatever order the fold runs.
-/
import Idealize.ShloMosaic.PureOps.ShapeOps

noncomputable section

namespace Cert.LibScatterSet

open Idealize.ShloMosaic

variable {s si u : Shape} {α : Type} {w : Nat}

/-- One step of the fold: update number `n` written where it lands, or dropped when it lands outside. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter is the fold of that step. -/
theorem scatter_set_eq_foldl (d : ScatterDims s si u) (x : s.Idx → α) (idx : IVec si w) (upd : u.Idx → α) :
    Host.scatter d (fun _ b => b) x idx upd = (List.finRange u.numel).foldl (setStep d idx upd) x := rfl

theorem setStep_of_some (d : ScatterDims s si u) (idx : IVec si w) (upd : u.Idx → α) (r : s.Idx → α) (n : Fin u.numel)
    (i : s.Idx) (h : d.resultIdx? (u.rowMajor.symm n) idx = some i) :
    setStep d idx upd r n = fun i' => if i' = i then upd (u.rowMajor.symm n) else r i' := by
  unfold setStep; rw [h]

/-- After the updates of a list `L`, the element where update `j` of the list lands holds update `j`. -/
theorem foldl_setStep_apply (d : ScatterDims s si u) (x : s.Idx → α) (idx : IVec si w) (upd : u.Idx → α)
    (g : u.Idx → s.Idx) (hg : Function.Injective g) (hres : ∀ j, d.resultIdx? j idx = some (g j)) :
    ∀ (L : List (Fin u.numel)) (j : u.Idx), u.rowMajor j ∈ L → (L.foldl (setStep d idx upd) x) (g j) = upd j := by
  intro L
  induction L using List.reverseRecOn with
  | nil => intro j h; exact absurd h List.not_mem_nil
  | append_singleton L n ih =>
    intro j hj
    rw [List.foldl_append, List.foldl_cons, List.foldl_nil,
      setStep_of_some d idx upd _ n (g (u.rowMajor.symm n)) (hres _)]
    show (if g j = g (u.rowMajor.symm n) then upd (u.rowMajor.symm n) else (L.foldl (setStep d idx upd) x) (g j)) = upd j
    by_cases h : g j = g (u.rowMajor.symm n)
    · rw [if_pos h, ← hg h]
    · rw [if_neg h]
      refine ih j ?_
      rcases List.mem_append.mp hj with h1 | h1
      · exact h1
      · exfalso; apply h
        have e : u.rowMajor j = n := List.mem_singleton.mp h1
        rw [← e, Equiv.symm_apply_apply]

/-- A `.set` scatter whose updates land, one each, at `g j`: the result there is the update. -/
theorem scatter_set_apply (d : ScatterDims s si u) (x : s.Idx → α) (idx : IVec si w) (upd : u.Idx → α)
    (g : u.Idx → s.Idx) (hg : Function.Injective g) (hres : ∀ j, d.resultIdx? j idx = some (g j)) (j : u.Idx) :
    Host.scatter d (fun _ b => b) x idx upd (g j) = upd j := by
  rw [scatter_set_eq_foldl]
  exact foldl_setStep_apply d x idx upd g hg hres _ j (List.mem_finRange _)

end Cert.LibScatterSet

end
-- ==== Proof.PadRead.lean ====
/-
  The classifier's weight and bias, padded. Before the second kernel the host writes the [128, 16] weight into the first
  sixteen columns of a [128, 128] array of zeros, and the [16] bias into the first sixteen entries of a [128] vector of
  zeros (jnp's `.at[:, :16].set`, `.at[:16].set`: a scatter at the one start index 0 whose body returns the update).
  Update index (k, c) lands at (k, c) — start 0 plus its own window coordinate — and no two updates meet, so the padded
  weight at (k, c), c < 16, is the weight at (k, c), and the padded bias at c is the bias at c. The columns from 16 on are
  never read by the result, which keeps the first sixteen only.
-/
import proofs.«161572_j3324304687691_1_alg».proof.Proof.Gen.KernelIdeal
import proofs.«161572_j3324304687691_1_alg».proof.Proof.LibScatterSet
import Idealize.ShloMosaic.Lib.ValueIdx

noncomputable section

namespace Cert.KernelIdeal.Pad

open Cert.KernelIdeal Cert.KernelIdeal.Gen Cert.LibScatterSet
open Idealize.ShloMosaic Idealize.ShloMosaic.ValueIdx

variable {F : FTy → Type} [FloatOps F]

/-- The one start index both paddings scatter at: zero. -/
abbrev zeroIdx : IVec S1 32 := broadcastInDim S1 ![] bcast_S_S1 (constantI S_ 32 0#32)

abbrev dW : ScatterDims S128x128 S1 S128x16 := scatter_S128x128_S1_S128x16_01_n_1_0
abbrev dB : ScatterDims S128 S1 S16 := scatter_S128_S1_S16_0_n_0_0

/-- The weight written into the first sixteen columns of zeros. -/
def padW (w : FVec F S128x16 .f32) : FVec F S128x128 .f32 :=
  Host.scatter dW (fun _ b => b) (broadcastInDim S128x128 ![] bcast_S_S128x128 (constant S_ .f32 0x00000000#32)) zeroIdx w
/-- The bias written into the first sixteen entries of zeros. -/
def padB (b : FVec F S16 .f32) : FVec F S128 .f32 :=
  Host.scatter dB (fun _ b => b) (broadcastInDim S128 ![] bcast_S_S128 (constant S_ .f32 0x00000000#32)) zeroIdx b

/-- Where update (k, c) of the weight lands: at (k, c) of the padded array. -/
def embW (j : S128x16.Idx) : S128x128.Idx :=
  ix2 ⟨(j 0).val, (j 0).isLt⟩ ⟨(j 1).val, by have h : (j 1).val < 16 := (j 1).isLt; omega⟩
/-- Where update c of the bias lands: at c of the padded vector. -/
def embB (j : S16.Idx) : S128.Idx := ix1 ⟨(j 0).val, by have h : (j 0).val < 16 := (j 0).isLt; omega⟩

theorem embW_injective : Function.Injective embW := fun j j' h => funext fun a => Fin.ext (by
  match a with
  | ⟨0, _⟩ => exact congrArg (fun i : S128x128.Idx => (i 0).val) h
  | ⟨1, _⟩ => exact congrArg (fun i : S128x128.Idx => (i 1).val) h)
theorem embB_injective : Function.Injective embB := fun j j' h => funext fun a => Fin.ext (by
  match a with
  | ⟨0, _⟩ => exact congrArg (fun i : S128.Idx => (i 0).val) h)

theorem resW_sum (j : S128x16.Idx) (a : Fin 2) : dW.start j zeroIdx a + (dW.window j a : Int) = ((embW j a).val : Int) := by
  match a with
  | ⟨0, _⟩ => show (0 : Int) + ((j 0).val : Int) = ((j 0).val : Int); exact zero_add _
  | ⟨1, _⟩ => show (0 : Int) + ((j 1).val : Int) = ((j 1).val : Int); exact zero_add _
theorem resB_sum (j : S16.Idx) (a : Fin 1) : dB.start j zeroIdx a + (dB.window j a : Int) = ((embB j a).val : Int) := by
  match a with
  | ⟨0, _⟩ => show (0 : Int) + ((j 0).val : Int) = ((j 0).val : Int); exact zero_add _

/-- Update (k, c) of the weight lands inside the padded array, at (k, c). -/
theorem resW (j : S128x16.Idx) : dW.resultIdx? j zeroIdx = some (embW j) := by
  unfold ScatterDims.resultIdx?
  have hc : ∀ a : Fin 2, 0 ≤ dW.start j zeroIdx a + dW.window j a ∧ dW.start j zeroIdx a + dW.window j a < S128x128.size a :=
    fun a => by
      rw [resW_sum j a]
      exact ⟨Int.natCast_nonneg _, by exact_mod_cast (embW j a).isLt⟩
  rw [dif_pos hc]
  refine congrArg some (funext fun a => Fin.ext ?_)
  show (dW.start j zeroIdx a + dW.window j a).toNat = (embW j a).val
  rw [resW_sum j a]; exact Int.toNat_natCast _
/-- Update c of the bias lands inside the padded vector, at c. -/
theorem resB (j : S16.Idx) : dB.resultIdx? j zeroIdx = some (embB j) := by
  unfold ScatterDims.resultIdx?
  have hc : ∀ a : Fin 1, 0 ≤ dB.start j zeroIdx a + dB.window j a ∧ dB.start j zeroIdx a + dB.window j a < S128.size a :=
    fun a => by
      rw [resB_sum j a]
      exact ⟨Int.natCast_nonneg _, by exact_mod_cast (embB j a).isLt⟩
  rw [dif_pos hc]
  refine congrArg some (funext fun a => Fin.ext ?_)
  show (dB.start j zeroIdx a + dB.window j a).toNat = (embB j a).val
  rw [resB_sum j a]; exact Int.toNat_natCast _

/-- The padded weight at (k, c), c < 16, is the weight at (k, c). -/
theorem padW_apply (w : FVec F S128x16 .f32) (k : Fin 128) (c : Fin 16) :
    padW w (ix2 k ⟨c.val, by omega⟩) = w (ix2 k c) :=
  scatter_set_apply dW _ zeroIdx w embW embW_injective resW (ix2 k c)
/-- The padded bias at c < 16 is the bias at c. -/
theorem padB_apply (b : FVec F S16 .f32) (c : Fin 16) : padB b (ix1 ⟨c.val, by omega⟩) = b (ix1 c) :=
  scatter_set_apply dB _ zeroIdx b embB embB_injective resB (ix1 c)

end Cert.KernelIdeal.Pad

end
-- ==== Proof.HostValues.lean ====
/-
  What the idealized kernel's buffers hold at the boundaries of its run, as functions of the launch memory.

  Between the two kernels the host gathers the first layer's rows along the edges' sources (self loops appended, negative
  indices wrapped), weights them by the symmetric degree normalisation, sums them into the edges' targets and adds the
  bias: ONE function `Agg` of the first layer's output, the source and target lists, the normalised edge weights and
  the bias. It is carried as that function and never opened: the reference applies the same operations to its own first
  layer. The source and target lists and the normalised weights are the reference's own stages of the edge list and edge
  weights (the two programs spell these host operations identically). Around `Agg` the host reshapes the scale and the
  shift to rows, pads the classifier's weight and bias (PadRead), and after the second kernel keeps the first sixteen
  columns.
-/
import proofs.«161572_j3324304687691_1_alg».proof.Proof.Gen.KernelIdeal.Frame
import proofs.«161572_j3324304687691_1_alg».proof.Proof.Gen.ReferenceIdeal.Read
import proofs.«161572_j3324304687691_1_alg».proof.Proof.ProductArray
import proofs.«161572_j3324304687691_1_alg».proof.Proof.NormArray
import proofs.«161572_j3324304687691_1_alg».proof.Proof.PadRead
import Idealize.ShloMosaic.Lib.StableHlo.Run

set_option maxRecDepth 16384

noncomputable section

namespace Cert.KernelIdeal.Held

open Cert.KernelIdeal Cert.KernelIdeal.Gen Cert.KernelIdeal.Pad Cert.KernelIdeal.Arrays
open Cert.ReferenceIdeal.Read (val_main_v3 val_main_v6 val_main_v32)
open Idealize.ShloMosaic Idealize.ShloMosaic.TcCoe Idealize.ShloMosaic.StableHlo Idealize.SL.Sem

section AnyValues
variable {F : FTy → Type} [FloatOps F]
variable (m : (ℓ : Loc nD τ sig) → Buf (Elt F) ℓ) (ρ : Dev nD → PrngReg)

/-- The aggregation over the edges: rows of `h` gathered at the sources `src` (an index below zero wrapped by 100000),
    each scaled by its edge's normalised weight `nrm`, summed into the targets `dst`, plus the bias `b1` on every row. -/
def Agg (h : FVec F S100000x128 .f32) (src dst : IVec S1700000 32) (nrm : FVec F S1700000 .f32) (b1 : FVec F S128 .f32) :
    FVec F S100000x128 .f32 :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf
        (Host.gather gather_S100000x128_S1700000x1_S1700000x128_1_0_n_n_0_1_1128 h
          (broadcastInDim S1700000x1 ![0] bcast_S1700000_S1700000x1_0
            (select (cmpi .slt src (broadcastInDim S1700000 ![] bcast_S_S1700000 (constantI S_ 32 0#32)))
              (addi src (broadcastInDim S1700000 ![] bcast_S_S1700000 (constantI S_ 32 100000#32))) src)))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b1))

/-! ## At the first kernel's exit: the edge lists, the normalised weights and the untouched arguments -/

/-- The source list is the reference's stage of the edge list. -/
theorem exit0_src (c : Dev nD) : W4 m ρ c (Proc.devRef .tc main_v3) = val_main_v3 (F := F) (m ((c : Thread nD τ).loc main_arg1)) := by
  rw [W4_of_ne m ρ c main_v3 (by decide)]
  dsimp only [W3, W2, W1, hostOps0_2, hostOps0_1, hostOps0]
  after_results_simp
  rfl
/-- The target list is the reference's stage of the edge list. -/
theorem exit0_dst (c : Dev nD) : W4 m ρ c (Proc.devRef .tc main_v6) = val_main_v6 (F := F) (m ((c : Thread nD τ).loc main_arg1)) := by
  rw [W4_of_ne m ρ c main_v6 (by decide)]
  dsimp only [W3, W2, W1, hostOps0_2, hostOps0_1, hostOps0]
  after_results_simp
  rfl
/-- The normalised edge weights are the reference's stage of the edge list and the edge weights. -/
theorem exit0_nrm (c : Dev nD) :
    W4 m ρ c (Proc.devRef .tc main_v32) = val_main_v32 (F := F) (m ((c : Thread nD τ).loc main_arg1)) (m ((c : Thread nD τ).loc main_arg2)) := by
  rw [W4_of_ne m ρ c main_v32 (by decide)]
  dsimp only [W3, W2, W1, hostOps0_2, hostOps0_1, hostOps0]
  after_results_simp
  rfl
/-- Argument 4 is as launched. -/
theorem exit0_arg4 (c : Dev nD) : W4 m ρ c (Proc.devRef .tc main_arg4) = (m ((c : Thread nD τ).loc main_arg4)) := by
  rw [W4_of_ne m ρ c main_arg4 (by decide)]
  dsimp only [W3, W2, W1, hostOps0_2, hostOps0_1, hostOps0]
  after_results_simp
/-- Argument 5 is as launched. -/
theorem exit0_arg5 (c : Dev nD) : W4 m ρ c (Proc.devRef .tc main_arg5) = (m ((c : Thread nD τ).loc main_arg5)) := by
  rw [W4_of_ne m ρ c main_arg5 (by decide)]
  dsimp only [W3, W2, W1, hostOps0_2, hostOps0_1, hostOps0]
  after_results_simp
/-- Argument 6 is as launched. -/
theorem exit0_arg6 (c : Dev nD) : W4 m ρ c (Proc.devRef .tc main_arg6) = (m ((c : Thread nD τ).loc main_arg6)) := by
  rw [W4_of_ne m ρ c main_arg6 (by decide)]
  dsimp only [W3, W2, W1, hostOps0_2, hostOps0_1, hostOps0]
  after_results_simp
/-- Argument 7 is as launched. -/
theorem exit0_arg7 (c : Dev nD) : W4 m ρ c (Proc.devRef .tc main_arg7) = (m ((c : Thread nD τ).loc main_arg7)) := by
  rw [W4_of_ne m ρ c main_arg7 (by decide)]
  dsimp only [W3, W2, W1, hostOps0_2, hostOps0_1, hostOps0]
  after_results_simp
/-- Argument 8 is as launched. -/
theorem exit0_arg8 (c : Dev nD) : W4 m ρ c (Proc.devRef .tc main_arg8) = (m ((c : Thread nD τ).loc main_arg8)) := by
  rw [W4_of_ne m ρ c main_arg8 (by decide)]
  dsimp only [W3, W2, W1, hostOps0_2, hostOps0_1, hostOps0]
  after_results_simp
/-- Argument 0 is as launched when the first kernel is entered. -/
theorem entry0_arg0 (c : Dev nD) : V3 m ρ c main_arg0 = (m ((c : Thread nD τ).loc main_arg0)) := by
  show W3 m ρ c (Proc.devRef .tc main_arg0) = _
  dsimp only [W3, W2, W1, hostOps0_2, hostOps0_1, hostOps0]
  after_results_simp
/-- Argument 3 is as launched when the first kernel is entered. -/
theorem entry0_arg3 (c : Dev nD) : V3 m ρ c main_arg3 = (m ((c : Thread nD τ).loc main_arg3)) := by
  show W3 m ρ c (Proc.devRef .tc main_arg3) = _
  dsimp only [W3, W2, W1, hostOps0_2, hostOps0_1, hostOps0]
  after_results_simp

/-! ## At the second kernel's entry -/

/-- The aggregated features are `Agg` of what the first kernel's exit holds. -/
theorem entry1_agg (c : Dev nD) : V5 m ρ c main_v49
    = Agg (W4 m ρ c (Proc.devRef .tc main_v33)) (W4 m ρ c (Proc.devRef .tc main_v3)) (W4 m ρ c (Proc.devRef .tc main_v6))
        (W4 m ρ c (Proc.devRef .tc main_v32)) (W4 m ρ c (Proc.devRef .tc main_arg4)) := by
  show W5 m ρ c (Proc.devRef .tc main_v49) = _
  dsimp only [W5, hostOps1]
  after_results_simp
  rfl
/-- The scale, as a row. -/
theorem entry1_scale (c : Dev nD) : V5 m ρ c main_v50 = shapeCast S1x128 (W4 m ρ c (Proc.devRef .tc main_arg5)) shapeCasts_S128_S1x128 := by
  show W5 m ρ c (Proc.devRef .tc main_v50) = _
  dsimp only [W5, hostOps1]
  after_results_simp
  rfl
/-- The shift, as a row. -/
theorem entry1_shift (c : Dev nD) : V5 m ρ c main_v51 = shapeCast S1x128 (W4 m ρ c (Proc.devRef .tc main_arg6)) shapeCasts_S128_S1x128 := by
  show W5 m ρ c (Proc.devRef .tc main_v51) = _
  dsimp only [W5, hostOps1]
  after_results_simp
  rfl
/-- The classifier's weight, padded. -/
theorem entry1_weight (c : Dev nD) : V5 m ρ c main_v54 = padW (W4 m ρ c (Proc.devRef .tc main_arg7)) := by
  show W5 m ρ c (Proc.devRef .tc main_v54) = _
  dsimp only [W5, hostOps1]
  after_results_simp
  rfl
/-- The classifier's bias, padded, as a row. -/
theorem entry1_bias (c : Dev nD) :
    V5 m ρ c main_v58 = shapeCast S1x128 (padB (W4 m ρ c (Proc.devRef .tc main_arg8))) shapeCasts_S128_S1x128 := by
  show W5 m ρ c (Proc.devRef .tc main_v58) = _
  dsimp only [W5, hostOps1]
  after_results_simp
  rfl

/-- The result buffer after the closing slice: the first sixteen columns of the second kernel's output array. -/
theorem final_slice (c : Dev nD) : W7 m ρ c (Proc.devRef .tc main_v60)
    = extractStridedSlice S100000x16 ![0, 0] (W6 m ρ c (Proc.devRef .tc main_v59)) slices_S100000x128_S100000x16_0_0 := by
  dsimp only [W7, hostOps2]
  after_results_simp

end AnyValues

/-! ## At the extended reals: the two kernels' arrays put in -/

section Ideal
variable (m : (ℓ : Loc nD τ sig) → Buf (Elt Ideal) ℓ) (ρ : Dev nD → PrngReg)

/-- The first layer's output after the first kernel: the whole product of the features and the weight as launched. -/
theorem exit0_product (c : Dev nD) :
    W4 m ρ c (Proc.devRef .tc main_v33) = product (m ((c : Thread nD τ).loc main_arg0)) (m ((c : Thread nD τ).loc main_arg3)) := by
  refine (W4_arr m ρ c 2).trans ((product_array (V3 m ρ) c).trans ?_)
  rw [entry0_arg0 m ρ c, entry0_arg3 m ρ c]

/-- THE KERNEL'S RESULT as one function of the launch memory: the first sixteen columns of the normalised output of the
    aggregated product, with the scale and shift as rows and the padded weight and bias. -/
theorem result_eq (c : Dev nD) : W7 m ρ c (Proc.devRef .tc main_v60)
    = extractStridedSlice S100000x16 ![0, 0]
        (normOut
          (Agg (F := Ideal) (product (m ((c : Thread nD τ).loc main_arg0)) (m ((c : Thread nD τ).loc main_arg3))) (val_main_v3 (F := Ideal) (m ((c : Thread nD τ).loc main_arg1))) (val_main_v6 (F := Ideal) (m ((c : Thread nD τ).loc main_arg1)))
            (val_main_v32 (F := Ideal) (m ((c : Thread nD τ).loc main_arg1)) (m ((c : Thread nD τ).loc main_arg2))) (m ((c : Thread nD τ).loc main_arg4)))
          (shapeCast S1x128 (m ((c : Thread nD τ).loc main_arg5)) shapeCasts_S128_S1x128) (shapeCast S1x128 (m ((c : Thread nD τ).loc main_arg6)) shapeCasts_S128_S1x128)
          (padW (F := Ideal) (m ((c : Thread nD τ).loc main_arg7))) (shapeCast S1x128 (padB (F := Ideal) (m ((c : Thread nD τ).loc main_arg8))) shapeCasts_S128_S1x128))
        slices_S100000x128_S100000x16_0_0 := by
  rw [final_slice m ρ c]
  refine congrArg (fun X : FVec Ideal S100000x128 .f32 => extractStridedSlice S100000x16 ![0, 0] X slices_S100000x128_S100000x16_0_0) ?_
  refine (W6_arr m ρ c 5).trans ((norm_array (V5 m ρ) c).trans ?_)
  rw [entry1_agg m ρ c, entry1_scale m ρ c, entry1_shift m ρ c, entry1_weight m ρ c, entry1_bias m ρ c,
    exit0_product m ρ c, exit0_src m ρ c, exit0_dst m ρ c, exit0_nrm m ρ c, exit0_arg4 m ρ c, exit0_arg5 m ρ c,
    exit0_arg6 m ρ c, exit0_arg7 m ρ c, exit0_arg8 m ρ c]

end Ideal

end Cert.KernelIdeal.Held

end
-- ==== Proof.RefRead.lean ====
/-
  The reference's result, read index by index. After the aggregation (the stage `val_main_v49`, never opened here) the
  reference normalises each row on the host: a sum over the 128 features started from zero and divided by 128, the
  deviations squared and averaged the same way, the reciprocal square root of that variance plus ε, the scale, the shift,
  a maximum with zero, the product with the [128, 16] classifier weight and the bias. Entry (p, c) of the result is
  `RowSpec.out` of row p of the aggregated features against column c of the weight.

  The aggregation itself is the kernel program's `Agg` of the reference's own first layer — the two programs spell those
  host operations identically — and that first layer, a `dot_general`, is the whole product, entry by entry.
-/
import proofs.«161572_j3324304687691_1_alg».proof.Proof.Gen.ReferenceIdeal.Read
import proofs.«161572_j3324304687691_1_alg».proof.Proof.HostValues

noncomputable section

namespace Cert.ReferenceIdeal.Rows

open Cert.ReferenceIdeal Cert.ReferenceIdeal.Read Cert.RowSpec
open Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 x5 x6 : (⟨S128, .f32⟩ : BufTy).Contents (Elt Ideal)) (x7 : (⟨S128x16, .f32⟩ : BufTy).Contents (Elt Ideal))
  (x8 : (⟨S16, .f32⟩ : BufTy).Contents (Elt Ideal))

/-! ## The stages' index maps at literal coordinates -/

theorem i50 (p : Fin 100000) (k : Fin 128) : idx_main_v50 (ix1 p) k = ix2 p k :=
  funext fun a => Fin.ext (by match a with | ⟨0, _⟩ => rfl | ⟨1, _⟩ => rfl)
theorem i57 (p : Fin 100000) (k : Fin 128) : idx_main_v57 (ix1 p) k = ix2 p k :=
  funext fun a => Fin.ext (by match a with | ⟨0, _⟩ => rfl | ⟨1, _⟩ => rfl)
theorem i51 (p : Fin 100000) (u : Fin 1) : idx_main_v51 (ix2 p u) = ix1 p :=
  funext fun a => Fin.ext (by match a with | ⟨0, _⟩ => rfl)
theorem i58 (p : Fin 100000) (u : Fin 1) : idx_main_v58 (ix2 p u) = ix1 p :=
  funext fun a => Fin.ext (by match a with | ⟨0, _⟩ => rfl)
theorem i54 (p : Fin 100000) (k : Fin 128) : idx_main_v54 (ix2 p k) = ix2 p (0 : Fin 1) :=
  funext fun a => Fin.ext (by match a with | ⟨0, _⟩ => rfl | ⟨1, _⟩ => rfl)
theorem i61 (p : Fin 100000) (k : Fin 128) : idx_main_v61 (ix2 p k) = ix2 p (0 : Fin 1) :=
  funext fun a => Fin.ext (by match a with | ⟨0, _⟩ => rfl | ⟨1, _⟩ => rfl)
theorem i66 (p : Fin 100000) (k : Fin 128) : idx_main_v66 (ix2 p k) = ix2 p (0 : Fin 1) :=
  funext fun a => Fin.ext (by match a with | ⟨0, _⟩ => rfl | ⟨1, _⟩ => rfl)
theorem i69 (p : Fin 100000) (k : Fin 128) : idx_main_v69 (ix2 p k) = ix2 (0 : Fin 1) k :=
  funext fun a => Fin.ext (by match a with | ⟨0, _⟩ => rfl | ⟨1, _⟩ => rfl)
theorem i72 (p : Fin 100000) (k : Fin 128) : idx_main_v72 (ix2 p k) = ix2 (0 : Fin 1) k :=
  funext fun a => Fin.ext (by match a with | ⟨0, _⟩ => rfl | ⟨1, _⟩ => rfl)
theorem i68 (u : Fin 1) (k : Fin 128) : idx_main_v68 (ix2 u k) = ix1 k :=
  funext fun a => Fin.ext (by match a with | ⟨0, _⟩ => rfl)
theorem i71 (u : Fin 1) (k : Fin 128) : idx_main_v71 (ix2 u k) = ix1 k :=
  funext fun a => Fin.ext (by match a with | ⟨0, _⟩ => rfl)
theorem i77 (p : Fin 100000) (c : Fin 16) : idx_main_v77 (ix2 p c) = ix2 (0 : Fin 1) c :=
  funext fun a => Fin.ext (by match a with | ⟨0, _⟩ => rfl | ⟨1, _⟩ => rfl)
theorem i76 (u : Fin 1) (c : Fin 16) : idx_main_v76 (ix2 u c) = ix1 c :=
  funext fun a => Fin.ext (by match a with | ⟨0, _⟩ => rfl)
theorem l75 (p : Fin 100000) (c : Fin 16) (k : Fin 128) : lidx_main_v75 (ix2 p c) k = ix2 p k :=
  funext fun a => Fin.ext (by match a with | ⟨0, _⟩ => rfl | ⟨1, _⟩ => rfl)
theorem r75 (p : Fin 100000) (c : Fin 16) (k : Fin 128) : ridx_main_v75 (ix2 p c) k = ix2 k c :=
  funext fun a => Fin.ext (by match a with | ⟨0, _⟩ => rfl | ⟨1, _⟩ => rfl)

/-! ## The normalisation, stage by stage, over the aggregated features -/

/-- A row's sum: the host's sum from zero over the 128 features. -/
theorem sum50 (p : Fin 100000) :
    val_main_v50 (F := Ideal) x0 x1 x2 x3 x4 (ix1 p) = ∑ k : Fin 128, val_main_v49 (F := Ideal) x0 x1 x2 x3 x4 (ix2 p k) := by
  rw [val_main_v50_apply]
  show Ideal.ofBits .f32 0x00000000#32 + _ = _
  rw [Ideal.ofBits_zero_f32, zero_add]
  exact Finset.sum_congr rfl fun k _ => congrArg _ (i50 p k)

/-- A row's mean. -/
theorem mean53 (p : Fin 100000) (u : Fin 1) :
    val_main_v53 (F := Ideal) x0 x1 x2 x3 x4 (ix2 p u) = mean (fun k => val_main_v49 (F := Ideal) x0 x1 x2 x3 x4 (ix2 p k)) := by
  rw [val_main_v53_apply, val_main_v51_apply, i51 p u, sum50]
  rfl

/-- The row with its mean taken off (the copy the squares are taken of). -/
theorem centred55 (p : Fin 100000) (k : Fin 128) :
    val_main_v55 (F := Ideal) x0 x1 x2 x3 x4 (ix2 p k) = val_main_v49 (F := Ideal) x0 x1 x2 x3 x4 (ix2 p k) - mean (fun k => val_main_v49 (F := Ideal) x0 x1 x2 x3 x4 (ix2 p k)) := by
  rw [val_main_v55_apply, val_main_v54_apply, i54 p k, mean53]
  rfl
/-- The row with its mean taken off (the copy that is scaled). -/
theorem centred62 (p : Fin 100000) (k : Fin 128) :
    val_main_v62 (F := Ideal) x0 x1 x2 x3 x4 (ix2 p k) = val_main_v49 (F := Ideal) x0 x1 x2 x3 x4 (ix2 p k) - mean (fun k => val_main_v49 (F := Ideal) x0 x1 x2 x3 x4 (ix2 p k)) := by
  rw [val_main_v62_apply, val_main_v61_apply, i61 p k, mean53]
  rfl

/-- A row's variance. -/
theorem var60 (p : Fin 100000) (u : Fin 1) :
    val_main_v60 (F := Ideal) x0 x1 x2 x3 x4 (ix2 p u) = var (fun k => val_main_v49 (F := Ideal) x0 x1 x2 x3 x4 (ix2 p k)) := by
  rw [val_main_v60_apply, val_main_v58_apply, i58 p u, val_main_v57_apply]
  show Ideal.div (Ideal.ofBits .f32 0x00000000#32
    + ∑ k : Fin 128, val_main_v56 (F := Ideal) x0 x1 x2 x3 x4 (idx_main_v57 (ix1 p) k)) c128 = _
  rw [Ideal.ofBits_zero_f32, zero_add]
  unfold var
  refine congrArg (fun z => Ideal.div z c128) (Finset.sum_congr rfl fun k _ => ?_)
  rw [i57 p k, val_main_v56_apply, centred55]
  rfl

/-- The row normalised, scaled, shifted and rectified. -/
theorem act74 (p : Fin 100000) (k : Fin 128) :
    val_main_v74 (F := Ideal) x0 x1 x2 x3 x4 x5 x6 (ix2 p k) = act (fun k => val_main_v49 (F := Ideal) x0 x1 x2 x3 x4 (ix2 p k)) (fun k => x5 (ix1 k)) (fun k => x6 (ix1 k)) k := by
  have z : val_main_call1_v0 (F := Ideal) (ix2 p k) = 0 := Ideal.ofBits_zero_f32
  rw [val_main_v74_apply, val_main_v73_apply, val_main_v70_apply, val_main_v67_apply, centred62, val_main_v66_apply, i66 p k,
    val_main_v65_apply, val_main_v64_apply, var60, val_main_v69_apply, i69 p k, val_main_v68_apply, i68,
    val_main_v72_apply, i72 p k, val_main_v71_apply, i71, z]
  rfl

/-- Entry (p, c) of the reference's result. -/
theorem result_apply (p : Fin 100000) (c : Fin 16) :
    val_main_v78 (F := Ideal) x0 x1 x2 x3 x4 x5 x6 x7 x8 (ix2 p c)
      = out (fun k => val_main_v49 (F := Ideal) x0 x1 x2 x3 x4 (ix2 p k)) (fun k => x5 (ix1 k)) (fun k => x6 (ix1 k)) (fun k => x7 (ix2 k c)) (x8 (ix1 c)) := by
  rw [val_main_v78_apply, val_main_v75_apply, val_main_v77_apply, i77 p c, val_main_v76_apply, i76]
  unfold out
  refine congrArg (· + x8 (ix1 c)) (Finset.sum_congr rfl fun k _ => ?_)
  rw [l75 p c k, r75 p c k, act74]

/-! ## The aggregation and the first layer -/

/-- The reference's aggregation is the kernel program's `Agg` of the reference's first layer, source and target lists,
    normalised weights and bias. -/
theorem agg_eq : val_main_v49 (F := Ideal) x0 x1 x2 x3 x4
    = Cert.KernelIdeal.Held.Agg (F := Ideal) (val_main_v33 (F := Ideal) x0 x3) (val_main_v3 (F := Ideal) x1) (val_main_v6 (F := Ideal) x1)
        (val_main_v32 (F := Ideal) x1 x2) x4 := rfl

/-- The reference's first layer is the whole product, entry by entry. -/
theorem first_layer_eq : val_main_v33 (F := Ideal) x0 x3 = Cert.KernelIdeal.Arrays.product x0 x3 := by
  funext i
  rw [val_main_v33_apply]
  unfold Cert.KernelIdeal.Arrays.product Cert.RowSpec.dotAt
  refine Finset.sum_congr rfl fun k _ => ?_
  have el : lidx_main_v33 i k = ix2 ⟨(i 0).val, (i 0).isLt⟩ k :=
    funext fun a => Fin.ext (by match a with | ⟨0, _⟩ => rfl | ⟨1, _⟩ => rfl)
  have er : ridx_main_v33 i k = ix2 k ⟨(i 1).val, (i 1).isLt⟩ :=
    funext fun a => Fin.ext (by match a with | ⟨0, _⟩ => rfl | ⟨1, _⟩ => rfl)
  rw [el, er]
  rfl

end Cert.ReferenceIdeal.Rows

end
-- ==== Proof.Bridge.lean ====
/-
  The two results are one function. The kernel's result is the first sixteen columns of its normalised output over
  the aggregated whole product, with the scale and shift as rows and the classifier's weight and bias padded with zeros;
  the reference's is its host normalisation of the same aggregation, against the unpadded weight and bias. Entry (p, c),
  c < 16, of either is `RowSpec.out` of row p of `Agg (product x w) …` with the scale, the shift, column c of the weight and
  the bias at c: a row read back through a reshape is the vector, and the padded weight and bias on the first sixteen
  columns are the weight and the bias (PadRead). Nothing here needs the inputs finite: both sides are the same operations
  on the same extended reals.
-/
import proofs.«161572_j3324304687691_1_alg».proof.Proof.RefRead

set_option maxRecDepth 16384

noncomputable section

namespace Cert.Bridge

open Cert.RowSpec
open Cert.KernelIdeal.Held (Agg)
open Cert.KernelIdeal.Arrays (product normOut out_congr)
open Cert.KernelIdeal.Pad (padW padB padW_apply padB_apply)
open Cert.ReferenceIdeal.Read Cert.ReferenceIdeal.Rows
open Idealize.ShloMosaic Idealize.ShloMosaic.ValueIdx

variable (x0 : (⟨Cert.KernelIdeal.S100000x128, .f32⟩ : BufTy).Contents (Elt Ideal)) (x1 : (⟨Cert.KernelIdeal.S2x1600000, .i32⟩ : BufTy).Contents (Elt Ideal))
  (x2 : (⟨Cert.KernelIdeal.S1600000, .f32⟩ : BufTy).Contents (Elt Ideal)) (x3 : (⟨Cert.KernelIdeal.S128x128, .f32⟩ : BufTy).Contents (Elt Ideal))
  (x4 x5 x6 : (⟨Cert.KernelIdeal.S128, .f32⟩ : BufTy).Contents (Elt Ideal)) (x7 : (⟨Cert.KernelIdeal.S128x16, .f32⟩ : BufTy).Contents (Elt Ideal))
  (x8 : (⟨Cert.KernelIdeal.S16, .f32⟩ : BufTy).Contents (Elt Ideal))

/-- The normalised output at (p, q), its coordinates named. -/
theorem normOut_apply (a : Cert.KernelIdeal.S100000x128.Idx → EReal) (g β : Cert.KernelIdeal.S1x128.Idx → EReal) (w : Cert.KernelIdeal.S128x128.Idx → EReal)
    (b : Cert.KernelIdeal.S1x128.Idx → EReal) (p : Fin 100000) (q : Fin 128) :
    normOut a g β w b (ix2 p q)
      = out (fun k => a (ix2 p k)) (fun k => g (ix2 (0 : Fin 1) k)) (fun k => β (ix2 (0 : Fin 1) k)) (fun k => w (ix2 k q))
          (b (ix2 (0 : Fin 1) q)) := rfl

/-- The kernel's result, as a function of the argument arrays, is the reference's. -/
theorem result_bridge (h5 h6 h8 : Cert.KernelIdeal.S128.ShapeCasts Cert.KernelIdeal.S1x128) (hs : Cert.KernelIdeal.S100000x128.Slices ![0, 0] Cert.KernelIdeal.S100000x16) :
    extractStridedSlice Cert.KernelIdeal.S100000x16 ![0, 0]
      (normOut
        (Agg (F := Ideal) (product x0 x3) (val_main_v3 (F := Ideal) x1) (val_main_v6 (F := Ideal) x1) (val_main_v32 (F := Ideal) x1 x2) x4)
        (shapeCast Cert.KernelIdeal.S1x128 x5 h5) (shapeCast Cert.KernelIdeal.S1x128 x6 h6) (padW (F := Ideal) x7) (shapeCast Cert.KernelIdeal.S1x128 (padB (F := Ideal) x8) h8))
      hs
    = val_main_v78 (F := Ideal) x0 x1 x2 x3 x4 x5 x6 x7 x8 := by
  funext i
  obtain ⟨p, c, rfl⟩ : ∃ (p : Fin 100000) (c : Fin 16), i = ix2 p c := ⟨i 0, i 1, eq_ix2 i⟩
  rw [result_apply, agg_eq, first_layer_eq]
  have hk : ∀ a : Fin 2, ((ix2 p (⟨c.val, by have := c.isLt; omega⟩ : Fin 128) : Cert.KernelIdeal.S100000x128.Idx) a).val = (![0, 0] : Fin 2 → Nat) a + ((ix2 p c : Cert.KernelIdeal.S100000x16.Idx) a).val := by
    intro a
    match a with
    | ⟨0, _⟩ => show p.val = 0 + p.val; omega
    | ⟨1, _⟩ => show c.val = 0 + c.val; omega
  refine (extractStridedSlice_apply _ _ hs (ix2 p c) (ix2 p (⟨c.val, by have := c.isLt; omega⟩ : Fin 128)) hk).trans ?_
  rw [normOut_apply]
  refine out_congr _ _ _ _ _ _ _ _ _ _ (fun k => rfl) (fun k => ?_) (fun k => ?_) (fun k => ?_) ?_
  · exact shapeCast_a_1a_apply x5 h5 (0 : Fin 1) k
  · exact shapeCast_a_1a_apply x6 h6 (0 : Fin 1) k
  · exact padW_apply (F := Ideal) x7 k c
  · exact (shapeCast_a_1a_apply (padB (F := Ideal) x8) h8 (0 : Fin 1) _).trans (padB_apply (F := Ideal) x8 c)

end Cert.Bridge

end
-- ==== Proof.lean ====
/-
  The certificate of a two-layer graph network's forward pass: a Pallas kernel for the first layer's product, the host's
  edge-weighted aggregation, and a second Pallas kernel fusing LayerNorm, ReLU and the classifier, against plain jnp.

  At the extended reals both programs compute, for node p and class c,
      out p c = ∑ k, max ((a p k − μ p) · rsqrt (σ² p + ε) · g k + β k) 0 · W k c + b c,
  where a = Agg (x · W1): the rows of the first layer gathered along the edges (self loops appended), scaled by the
  symmetric degree normalisation, summed into their targets, plus the bias; μ p and σ² p are the mean and variance of row p
  over its 128 features. The kernel reaches this by two grids of fifty row blocks: the first stores, block by block, the
  product of the features with the first weight (bf16 rounding is the identity here, and a product into a zero accumulator is
  the plain sum); the second normalises each row of its block with lane sums and multiplies by the classifier's weight
  padded with zero columns, of which the result keeps the first sixteen. The reference does the same on the host with
  whole-array operations. The aggregation between the two kernels is the same host operations in both programs and is
  carried as one function, never opened; the two first layers agree entry by entry, so it is applied to equal arrays.

  The frames of both kernel programs are their generated frame certificates; the reference's frame is its generated run.
  The ideal pass rewrote nothing, so the idealization conjunct is trivial.
-/
import proofs.«161572_j3324304687691_1_alg».proof.Defs
import proofs.«161572_j3324304687691_1_alg».proof.Proof.Gen.Kernel
import proofs.«161572_j3324304687691_1_alg».proof.Proof.Gen.Kernel.Skeleton
import proofs.«161572_j3324304687691_1_alg».proof.Proof.Gen.Kernel.Launch
import proofs.«161572_j3324304687691_1_alg».proof.Proof.Gen.Kernel.Points
import proofs.«161572_j3324304687691_1_alg».proof.Proof.Gen.Kernel.Frame
import proofs.«161572_j3324304687691_1_alg».proof.Proof.Gen.KernelIdeal
import proofs.«161572_j3324304687691_1_alg».proof.Proof.Gen.KernelIdeal.Skeleton
import proofs.«161572_j3324304687691_1_alg».proof.Proof.Gen.KernelIdeal.Launch
import proofs.«161572_j3324304687691_1_alg».proof.Proof.Gen.KernelIdeal.Points
import proofs.«161572_j3324304687691_1_alg».proof.Proof.Gen.KernelIdeal.Frame
import proofs.«161572_j3324304687691_1_alg».proof.Proof.Gen.ReferenceIdeal
import proofs.«161572_j3324304687691_1_alg».proof.Proof.Gen.Pre_finite_inputs
import proofs.«161572_j3324304687691_1_alg».proof.Proof.Gen.ReferenceIdeal.Run
import proofs.«161572_j3324304687691_1_alg».proof.Proof.Gen.ReferenceIdeal.Read
import proofs.«161572_j3324304687691_1_alg».proof.Proof.KernelRun
import proofs.«161572_j3324304687691_1_alg».proof.Proof.HostValues
import proofs.«161572_j3324304687691_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to preserve. -/
theorem preserves : Cert.preserves_Kernel_KernelIdeal := trivial

/-- Run from memories that agree on the arguments, the idealized kernel ends with its result at the first sixteen columns
    of its normalised output (KernelRun, HostValues) and the idealized reference with its generated run's term; the two are
    one function of the arguments (Bridge). -/
theorem algebraic : Cert.algebraic_KernelIdeal_ReferenceIdeal := by
  intro m ρ m' ρ' _ hagree
  refine ⟨fun c => Cert.KernelIdeal.Gen.W7 m ρ c (Proc.devRef .tc Cert.KernelIdeal.main_v60), Cert.KernelIdeal.Out.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact ((Cert.KernelIdeal.Held.result_eq m ρ c).trans (Cert.Bridge.result_bridge _ _ _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
